-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S100000x64 : Shape := ⟨2, ![100000, 64]⟩
abbrev S64x256 : Shape := ⟨2, ![64, 256]⟩
abbrev S256x256 : Shape := ⟨2, ![256, 256]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : IVec S800000 32) (main_arg1 : IVec S800000 32) (main_arg2 : FVec F S800000 .f32) (main_arg3 : FVec F S100000x64 .f32) (main_arg4 : FVec F S64x256 .f32) (main_arg5 : FVec F S256x256 .f32) (main_arg6 : FVec F S256x256 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S800000 : Shape := ⟨1, ![800000]⟩
abbrev S100000x64 : Shape := ⟨2, ![100000, 64]⟩
abbrev S64x256 : Shape := ⟨2, ![64, 256]⟩
abbrev S256x256 : Shape := ⟨2, ![256, 256]⟩
abbrev S800000x1 : Shape := ⟨2, ![800000, 1]⟩
abbrev S_ : Shape := ⟨0, ![]⟩
abbrev S800000x64 : Shape := ⟨2, ![800000, 64]⟩
abbrev S102400x64 : Shape := ⟨2, ![102400, 64]⟩
abbrev S102400x256 : Shape := ⟨2, ![102400, 256]⟩
abbrev S4096x64 : Shape := ⟨2, ![4096, 64]⟩
abbrev S4096x256 : Shape := ⟨2, ![4096, 256]⟩
abbrev S100000x256 : Shape := ⟨2, ![100000, 256]⟩

abbrev nBuf : Space → Nat
  | .hbm => 31
  | .vmem => 7
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S100000x64, .f32⟩
  | .hbm, ⟨4, _⟩ => ⟨S64x256, .f32⟩
  | .hbm, ⟨5, _⟩ => ⟨S256x256, .f32⟩
  | .hbm, ⟨6, _⟩ => ⟨S256x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S_, .i32⟩
  | .hbm, ⟨24, _⟩ => ⟨S_, .f32⟩
  | .hbm, ⟨25, _⟩ => ⟨S102400x64, .f32⟩
  | .hbm, ⟨26, _⟩ => ⟨S64x256, .bf16⟩
  | .hbm, ⟨27, _⟩ => ⟨S256x256, .bf16⟩
  | .hbm, ⟨28, _⟩ => ⟨S256x256, .bf16⟩
  | .hbm, ⟨29, _⟩ => ⟨S102400x256, .f32⟩
  | .hbm, ⟨30, _⟩ => ⟨S100000x256, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S256x256, .bf16⟩
  | .local _ .vmem, ⟨4, _⟩ => ⟨S256x256, .bf16⟩
  | .local _ .vmem, ⟨5, _⟩ => ⟨S4096x256, .f32⟩
  | .local _ .vmem, ⟨6, _⟩ => ⟨S4096x256, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  h_S_ : 0 < S_.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  slices_S102400x256_S100000x256_0_0 : S102400x256.Slices ![0, 0] S100000x256
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S102400x256.size a
  hwx0_4 : ∀ i : grid0.Coords, EltTy.bits .f32 = 32 ∨ (Rect.block (s := S102400x256) S4096x256.size (cc0_transform_4 i) (hinb0_4 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v13) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S800000 : Shape := ⟨1, ![800000]⟩
abbrev S100000x64 : Shape := ⟨2, ![100000, 64]⟩
abbrev S64x256 : Shape := ⟨2, ![64, 256]⟩
abbrev S256x256 : Shape := ⟨2, ![256, 256]⟩
abbrev S800000x1 : Shape := ⟨2, ![800000, 1]⟩
abbrev S_ : Shape := ⟨0, ![]⟩
abbrev S800000x64 : Shape := ⟨2, ![800000, 64]⟩
abbrev S100000x256 : Shape := ⟨2, ![100000, 256]⟩

abbrev nBuf : Space → Nat
  | .hbm => 32
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S100000x64, .f32⟩
  | .hbm, ⟨4, _⟩ => ⟨S64x256, .f32⟩
  | .hbm, ⟨5, _⟩ => ⟨S256x256, .f32⟩
  | .hbm, ⟨6, _⟩ => ⟨S256x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S100000x256, .f32⟩
  | .hbm, ⟨24, _⟩ => ⟨S_, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S100000x256, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000x256 : S_.BroadcastsInDim S100000x256 (![] : Fin 0 → Fin S100000x256.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibPlainProduct.lean ====
/-
  A matrix product of an m × k by a k × n array of extended reals, read at one entry, in the two spellings the
  programs use: the matrix unit's product added into a zero accumulator, and the host's general dot product with
  the plain dimension numbers (rows × contraction times contraction × columns).  Both are the sum over the
  contracted coordinate of the products of the entries; on the extended reals that sum has no rounding and no order.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

/-- The host's plain product at entry (a, b): the sum over the contracted coordinate. -/
theorem dotGeneral_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

/-- The matrix unit's plain product into the zero accumulator at entry (a, b): the same sum.  Both products are
    the sum over the contraction index of the operands' products, so the matrix unit's is the host's. -/
theorem matmul_plain_entry {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← dotGeneral_plain_entry prec A B a b]
  show FloatOps.matmul (DotDims.plain m k n) prec A B (constant ⟨2, ![m, n]⟩ .f32 0x00000000#32) (ix2 a b)
    = FloatOps.dotGeneral (DotDims.plain m k n) prec _ A B (ix2 a b)
  rw [Ideal.matmul_constant_zero_apply, Ideal.dotGeneral_apply]

end Cert.LibPlainProduct

end
-- ==== Proof.Network.lean ====
/-
  The network both programs compute on every row of the node features, written once on the extended reals.

  A row `x` of 64 numbers goes through three bias-free linear layers of widths 256, 256, 256; after the first
  two the result is clipped below at zero.  A linear layer is the sum over the incoming coordinate of the entry
  times the weight, so entry `q` of the result is

      ∑ k₃, max (∑ k₂, max (∑ k₁, x k₁ · W0 (k₁, k₂)) 0 · W1 (k₂, k₃)) 0 · W2 (k₃, q).

  The value at row `p` of a feature array depends on row `p` alone: this is what lets the rows be processed in
  tiles, padded with rows that are thrown away, or all at once, with one and the same result.  The zero the
  clipping compares with is kept as the float word both programs print; its value is never needed.
-/
import proofs.«125468_j16114717295067_1_alg».proof.Proof.LibPlainProduct
import Idealize.ShloMosaic.Lib.ValueIdx
import Idealize.ShloMosaic.PureOps.Ideal.Laws

noncomputable section

namespace Cert.Network

open Idealize.ShloMosaic Idealize.ShloMosaic.ValueIdx

/-- The zero the clipping compares with: the f32 word of `0.0` read on the extended reals. -/
abbrev zero : EReal := Ideal.ofBits .f32 0x00000000#32

/-- A bias-free linear layer applied to one row. -/
def layer {K N : Nat} (h : Fin K → EReal) (W : (⟨2, ![K, N]⟩ : Shape).Idx → EReal) : Fin N → EReal :=
  fun q => ∑ k : Fin K, h k * W (ix2 k q)

/-- Clipping a row below at zero. -/
def clip {N : Nat} (h : Fin N → EReal) : Fin N → EReal := fun q => max (h q) zero

/-- The three layers applied to one row of 64 features. -/
def row (x : Fin 64 → EReal) (W0 : (⟨2, ![64, 256]⟩ : Shape).Idx → EReal)
    (W1 W2 : (⟨2, ![256, 256]⟩ : Shape).Idx → EReal) : Fin 256 → EReal :=
  layer (clip (layer (clip (layer x W0)) W1)) W2

/-- The network applied to every row of a feature array of `A` rows. -/
def rows {A : Nat} (X : (⟨2, ![A, 64]⟩ : Shape).Idx → EReal) (W0 : (⟨2, ![64, 256]⟩ : Shape).Idx → EReal)
    (W1 W2 : (⟨2, ![256, 256]⟩ : Shape).Idx → EReal) : (⟨2, ![A, 256]⟩ : Shape).Idx → EReal :=
  fun i => row (fun k => X (ix2 (i 0) k)) W0 W1 W2 (i 1)

theorem rows_apply {A : Nat} (X : (⟨2, ![A, 64]⟩ : Shape).Idx → EReal) (W0 : (⟨2, ![64, 256]⟩ : Shape).Idx → EReal)
    (W1 W2 : (⟨2, ![256, 256]⟩ : Shape).Idx → EReal) (p : Fin A) (q : Fin 256) :
    rows X W0 W1 W2 (ix2 p q) = row (fun k => X (ix2 p k)) W0 W1 W2 q := rfl

/-- Two rows with the same entries give the same result. -/
theorem row_congr {x x' : Fin 64 → EReal} (h : ∀ k, x k = x' k) (W0 : (⟨2, ![64, 256]⟩ : Shape).Idx → EReal)
    (W1 W2 : (⟨2, ![256, 256]⟩ : Shape).Idx → EReal) (q : Fin 256) : row x W0 W1 W2 q = row x' W0 W1 W2 q := by
  rw [show x = x' from funext h]

/-- A layer depends on its row only through the row's entries. -/
theorem layer_congr {K N : Nat} {h h' : Fin K → EReal} (e : ∀ k, h k = h' k) (W : (⟨2, ![K, N]⟩ : Shape).Idx → EReal)
    (q : Fin N) : layer h W q = layer h' W q := by
  rw [show h = h' from funext e]

/-- The network's value at a row depends on the row and the three weight arrays only through their entries. -/
theorem row_congr4 {x x' : Fin 64 → EReal} {W0 W0' : (⟨2, ![64, 256]⟩ : Shape).Idx → EReal}
    {W1 W1' W2 W2' : (⟨2, ![256, 256]⟩ : Shape).Idx → EReal} (hx : ∀ k, x k = x' k) (h0 : ∀ y, W0 y = W0' y)
    (h1 : ∀ y, W1 y = W1' y) (h2 : ∀ y, W2 y = W2' y) (q : Fin 256) : row x W0 W1 W2 q = row x' W0' W1' W2' q := by
  rw [show x = x' from funext hx, show W0 = W0' from funext h0, show W1 = W1' from funext h1,
    show W2 = W2' from funext h2]

/-- One layer as the matrix unit computes it: the product of an `A × K` array with the `K × N` weights into a
    zero accumulator, read at row `p`, is the layer applied to row `p`. -/
theorem matmul_layer {A K N : Nat} {φ₁ φ₂ : FTy} (H : FVec Ideal ⟨2, ![A, K]⟩ φ₁) (W : FVec Ideal ⟨2, ![K, N]⟩ φ₂)
    (p : Fin A) (q : Fin N) :
    matmul (DotDims.plain A K N) none H W (constant ⟨2, ![A, N]⟩ .f32 0x00000000#32) (ix2 p q)
      = layer (fun k => H (ix2 p k)) W q :=
  Cert.LibPlainProduct.matmul_plain_entry none H W p q

/-- One layer as the host computes it: the general dot product with the plain dimension numbers, read at row `p`. -/
theorem dotGeneral_layer {A K N : Nat} {φ₁ φ₂ : FTy} (H : FVec Ideal ⟨2, ![A, K]⟩ φ₁) (W : FVec Ideal ⟨2, ![K, N]⟩ φ₂)
    (p : Fin A) (q : Fin N) :
    Host.dotGeneral (DotDims.plain A K N) none H W (ix2 p q) = layer (fun k => H (ix2 p k)) W q :=
  Cert.LibPlainProduct.dotGeneral_plain_entry none H W p q

/-- The network as the host spells it on a whole array: three plain general dot products, and after the first two
    a maximum with an array that reads zero everywhere.  It holds for arbitrary arrays: nothing about the features
    or the weights is used beyond their entries. -/
theorem host_rows {A : Nat} (X : FVec Ideal ⟨2, ![A, 64]⟩ .f32) (W0 : FVec Ideal ⟨2, ![64, 256]⟩ .f32)
    (W1 W2 : FVec Ideal ⟨2, ![256, 256]⟩ .f32) (Z0 Z1 : FVec Ideal ⟨2, ![A, 256]⟩ .f32)
    (h0 : ∀ i, Z0 i = zero) (h1 : ∀ i, Z1 i = zero) :
    Host.dotGeneral (DotDims.plain A 256 256) none
        (maximumf (Host.dotGeneral (DotDims.plain A 256 256) none
          (maximumf (Host.dotGeneral (DotDims.plain A 64 256) none X W0) Z0) W1) Z1) W2
      = rows X W0 W1 W2 := by
  funext i
  obtain ⟨p, q, rfl⟩ : ∃ (p : Fin A) (q : Fin 256), i = ix2 p q := ⟨i 0, i 1, eq_ix2 i⟩
  rw [rows_apply]
  unfold row
  -- the third layer, read at (p, q)
  refine (dotGeneral_layer (A := A) (K := 256) (N := 256) _ W2 p q).trans (layer_congr (fun k3 => ?_) W2 q)
  show max (Host.dotGeneral (DotDims.plain A 256 256) none _ W1 (ix2 p k3)) (Z1 (ix2 p k3)) = max _ zero
  rw [h1]
  refine congrArg (fun a => max a zero) ?_
  -- the second layer, read at (p, k3)
  refine (dotGeneral_layer (A := A) (K := 256) (N := 256) _ W1 p k3).trans (layer_congr (fun k2 => ?_) W1 k3)
  show max (Host.dotGeneral (DotDims.plain A 64 256) none X W0 (ix2 p k2)) (Z0 (ix2 p k2)) = max _ zero
  rw [h0]
  refine congrArg (fun a => max a zero) ?_
  -- the first layer, read at (p, k2)
  exact dotGeneral_layer (A := A) (K := 64) (N := 256) X W0 p k2

end Cert.Network

end
-- ==== Proof.RefRows.lean ====
/-
  The reference, as one function of its arguments.  After the aggregation of the edge messages into one row of 64
  features per node, the reference applies the three layers to the whole array at once: a general dot product
  with the plain dimension numbers for each layer, and a maximum with a broadcast zero after the first two.  That
  is the network applied to every row of the aggregated features.  The aggregation itself (a gather of the rows
  named by one index array, scaled, and scatter-added to the rows named by the other) is the same text in both
  programs; it is carried along as one function and never opened.
-/
import proofs.«125468_j16114717295067_1_alg».proof.Proof.Gen.ReferenceIdeal.Read
import proofs.«125468_j16114717295067_1_alg».proof.Proof.Network

noncomputable section

namespace Cert.ReferenceIdeal.RefRows

open Idealize.ShloMosaic Idealize.ShloMosaic.ValueIdx Cert.ReferenceIdeal Cert.ReferenceIdeal.Gen Cert.ReferenceIdeal.Read

/-- The zero array of the first clipping, read at an entry. -/
theorem clip0_zero (i : S100000x256.Idx) : val_main_call0_v0 (F := Ideal) i = Cert.Network.zero :=
  (val_main_call0_v0_apply i).trans (val_main_call0_cst_apply _)

/-- The zero array of the second clipping, read at an entry. -/
theorem clip1_zero (i : S100000x256.Idx) : val_main_call1_v0 (F := Ideal) i = Cert.Network.zero :=
  (val_main_call1_v0_apply i).trans (val_main_call1_cst_apply _)

/-- The reference's result is the network on every row of the aggregated features. -/
theorem result_eq (x0 x1 : (⟨S800000, .i32⟩ : BufTy).Contents (Elt Ideal)) (x2 : (⟨S800000, .f32⟩ : BufTy).Contents (Elt Ideal))
    (x3 : (⟨S100000x64, .f32⟩ : BufTy).Contents (Elt Ideal)) (x4 : (⟨S64x256, .f32⟩ : BufTy).Contents (Elt Ideal))
    (x5 x6 : (⟨S256x256, .f32⟩ : BufTy).Contents (Elt Ideal)) :
    val_main_v17 (F := Ideal) x0 x1 x2 x3 x4 x5 x6
      = Cert.Network.rows (A := 100000) (val_main_v12 (F := Ideal) x0 x1 x2 x3) x4 x5 x6 := by
  unfold val_main_v17 val_main_v16 val_main_v15 val_main_v14 val_main_v13
  -- the identity holds for any feature array; it is applied to the aggregated features as one unknown array
  generalize val_main_v12 (F := Ideal) x0 x1 x2 x3 = X
  exact Cert.Network.host_rows (A := 100000) X x4 x5 x6 (val_main_call0_v0 (F := Ideal)) (val_main_call1_v0 (F := Ideal))
    clip0_zero clip1_zero

end Cert.ReferenceIdeal.RefRows

end
-- ==== Proof.Tile.lean ====
/-
  One tile of the kernel: 4096 rows of features and the three weight arrays go in, 4096 rows of results come out.
  What the body stores is three products on the matrix unit, each into a zero accumulator, with the clipping
  at zero after the first two; the narrowing of the operands to the short float format changes nothing on the
  extended reals.  Read at row `r` and column `q` of the tile the stored value is therefore the network applied
  to row `r` of the tile's features.
-/
import proofs.«125468_j16114717295067_1_alg».proof.Proof.Gen.KernelIdeal.Skeleton
import proofs.«125468_j16114717295067_1_alg».proof.Proof.Network
import Idealize.ShloMosaic.Lib.Pipeline.Value

noncomputable section

namespace Cert.KernelIdeal.Tile

open Idealize.ShloMosaic Idealize.ShloMosaic.ValueIdx Cert.KernelIdeal Cert.KernelIdeal.Gen

/-- The value the body stores, at row `r` and column `q` of the tile: the network on row `r` of the features. -/
theorem pay_entry (x : FVec Ideal S4096x64 .f32) (w0 : FVec Ideal S64x256 .bf16) (w1 w2 : FVec Ideal S256x256 .bf16)
    (r : Fin 4096) (q : Fin 256) :
    k0_pay1 (F := Ideal) x w0 w1 w2 (ix2 r q) = Cert.Network.row (fun k => x (ix2 r k)) w0 w1 w2 q := by
  unfold k0_pay1
  simp only [shapeCast_self]
  unfold Cert.Network.row
  -- the third product, read at (r, q)
  refine (Cert.Network.matmul_layer (A := 4096) (K := 256) (N := 256) _ w2 r q).trans ?_
  refine Cert.Network.layer_congr (fun k3 => ?_) w2 q
  show max (matmul _ none _ w1 _ (ix2 r k3)) _ = Cert.Network.clip _ k3
  unfold Cert.Network.clip
  refine congrArg (fun a => max a Cert.Network.zero) ?_
  -- the second product, read at (r, k3)
  refine (Cert.Network.matmul_layer (A := 4096) (K := 256) (N := 256) _ w1 r k3).trans ?_
  refine Cert.Network.layer_congr (fun k2 => ?_) w1 k3
  show max (matmul _ none _ w0 _ (ix2 r k2)) _ = max _ Cert.Network.zero
  refine congrArg (fun a => max a Cert.Network.zero) ?_
  -- the first product, read at (r, k2)
  exact Cert.Network.matmul_layer (A := 4096) (K := 64) (N := 256) _ w0 r k2

end Cert.KernelIdeal.Tile

end
-- ==== Proof.Tiles.lean ====
/-
  From the tiles to the whole array.  The kernel runs over 25 grid points; point `t` is handed rows
  4096·t … 4096·t + 4095 of the padded feature array (102400 = 25 · 4096 rows) and the three weight arrays whole,
  and writes rows 4096·t … 4096·t + 4095 of the result array.  Since the network's value at a row depends on that
  row alone, what point `t` writes is the corresponding block of ONE function of the whole arrays: the network
  applied to every row of the padded features.  The 25 blocks cover the 102400 rows, so after the last point the
  result array holds that function.
-/
import proofs.«125468_j16114717295067_1_alg».proof.Proof.Gen.KernelIdeal.Frame
import proofs.«125468_j16114717295067_1_alg».proof.Proof.Tile
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block each window has at grid point `t`: the features' and the result's are block `t` along the rows, the
    weights' are the one block that is the whole array (decided over the 25 points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the features' tile at point `t` is row 4096·t + r of the padded feature array. -/
theorem feature_tile (c : Dev nD) (t : Fin cfg0.N) (r : Fin 4096) (k : Fin 64) (p : Fin 102400)
    (hp : p.val = t.val * 4096 + r.val) :
    (iblk m c 0 t : Vec Ideal S4096x64 .f32) (ix2 r k) = (V m c main_v13 : S102400x64.Idx → EReal) (ix2 p k) := by
  obtain ⟨e00, e01, -⟩ := block_index t
  unfold iblk
  rw [View.read_apply]
  show V m c main_v13 _ = V m c main_v13 _
  refine congrArg (V m c main_v13) (funext fun a => Fin.ext ?_)
  match a with
  | ⟨0, _⟩ => show win0_0.index t (0 : Fin 2) * 4096 + 1 * r.val = p.val; rw [e00, hp]; omega
  | ⟨1, _⟩ => show win0_0.index t (1 : Fin 2) * 64 + 1 * k.val = k.val; rw [e01]; omega

/-- The first weights' tile is the whole first weight array, at every point. -/
theorem weight0_tile (c : Dev nD) (t : Fin cfg0.N) (y : S64x256.Idx) :
    (iblk m c 1 t : Vec Ideal S64x256 .bf16) y = (V m c main_v14 : S64x256.Idx → EReal) y := by
  obtain ⟨-, -, e10, e11, -⟩ := block_index t
  unfold iblk
  rw [View.read_apply]
  show V m c main_v14 _ = V m c main_v14 y
  refine congrArg (V m c main_v14) (funext fun a => Fin.ext ?_)
  match a with
  | ⟨0, _⟩ => show win0_1.index t (0 : Fin 2) * 64 + 1 * (y 0).val = (y 0).val; rw [e10]; omega
  | ⟨1, _⟩ => show win0_1.index t (1 : Fin 2) * 256 + 1 * (y 1).val = (y 1).val; rw [e11]; omega

/-- The second weights' tile is the whole second weight array. -/
theorem weight1_tile (c : Dev nD) (t : Fin cfg0.N) (y : S256x256.Idx) :
    (iblk m c 2 t : Vec Ideal S256x256 .bf16) y = (V m c main_v15 : S256x256.Idx → EReal) y := by
  obtain ⟨-, -, -, -, e20, e21, -⟩ := block_index t
  unfold iblk
  rw [View.read_apply]
  show V m c main_v15 _ = V m c main_v15 y
  refine congrArg (V m c main_v15) (funext fun a => Fin.ext ?_)
  match a with
  | ⟨0, _⟩ => show win0_2.index t (0 : Fin 2) * 256 + 1 * (y 0).val = (y 0).val; rw [e20]; omega
  | ⟨1, _⟩ => show win0_2.index t (1 : Fin 2) * 256 + 1 * (y 1).val = (y 1).val; rw [e21]; omega

/-- The third weights' tile is the whole third weight array. -/
theorem weight2_tile (c : Dev nD) (t : Fin cfg0.N) (y : S256x256.Idx) :
    (iblk m c 3 t : Vec Ideal S256x256 .bf16) y = (V m c main_v16 : S256x256.Idx → EReal) y := by
  obtain ⟨-, -, -, -, -, -, e30, e31, -⟩ := block_index t
  unfold iblk
  rw [View.read_apply]
  show V m c main_v16 _ = V m c main_v16 y
  refine congrArg (V m c main_v16) (funext fun a => Fin.ext ?_)
  match a with
  | ⟨0, _⟩ => show win0_3.index t (0 : Fin 2) * 256 + 1 * (y 0).val = (y 0).val; rw [e30]; omega
  | ⟨1, _⟩ => show win0_3.index t (1 : Fin 2) * 256 + 1 * (y 1).val = (y 1).val; rw [e31]; omega

/-- The network on every row of the padded features, with the weights as the region finds them. -/
abbrev paddedRows (c : Dev nD) : S102400x256.Idx → EReal :=
  Cert.Network.rows (A := 102400) (V m c main_v13) (V m c main_v14) (V m c main_v15) (V m c main_v16)

/-- What point `t` writes back is block `t` of the network on every row of the padded features. -/
theorem written_eq (c : Dev nD) (t : Fin cfg0.N) :
    (dats m 0 c).flushed 4 t = ((cfg0.win 4).blk t).view.read (Elt Ideal) (paddedRows m c) := by
  show (cfg0.win 4).cut (grid0.coords t) ((dats m 0 c).after 4 t) = _
  rw [after0_4]
  unfold out0_4
  rw [View.canon_unit_zero zero_offsets]
  simp only [View.ld_unit_zero (S := S4096x64) zero_offsets, View.ld_unit_zero (S := S64x256) zero_offsets,
    View.ld_unit_zero (S := S256x256) zero_offsets]
  obtain ⟨-, -, -, -, -, -, -, -, e40, e41⟩ := block_index t
  have hN : cfg0.N = 25 := N_0
  funext j
  obtain ⟨r, q, rfl⟩ : ∃ (r : Fin 4096) (q : Fin 256), j = ix2 r q := ⟨j 0, j 1, eq_ix2 j⟩
  have hp : t.val * 4096 + r.val < 102400 := by have := t.isLt; have := r.isLt; omega
  -- entry (r, q) of the result's block at point t is entry (4096·t + r, q) of the result array
  have hemb : ((cfg0.win 4).blk t).view.emb (ix2 r q)
      = (ix2 (⟨t.val * 4096 + r.val, hp⟩ : Fin 102400) q : S102400x256.Idx) := by
    funext a; apply Fin.ext
    match a with
    | ⟨0, _⟩ => show win0_4.index t (0 : Fin 2) * 4096 + 1 * r.val = t.val * 4096 + r.val; rw [e40]; omega
    | ⟨1, _⟩ => show win0_4.index t (1 : Fin 2) * 256 + 1 * q.val = q.val; rw [e41]; omega
  show k0_pay1 (iblk m c 0 t) (iblk m c 1 t) (iblk m c 2 t) (iblk m c 3 t) (ix2 r q)
    = paddedRows m c (((cfg0.win 4).blk t).view.emb (ix2 r q))
  rw [hemb]
  refine (Cert.KernelIdeal.Tile.pay_entry (iblk m c 0 t) (iblk m c 1 t) (iblk m c 2 t) (iblk m c 3 t) r q).trans ?_
  exact Cert.Network.row_congr4 (x := fun k => (iblk m c 0 t : Vec Ideal S4096x64 .f32) (ix2 r k))
    (x' := fun k => (V m c main_v13 : S102400x64.Idx → EReal) (ix2 (⟨t.val * 4096 + r.val, hp⟩ : Fin 102400) k))
    (W0 := iblk m c 1 t) (W0' := V m c main_v14) (W1 := iblk m c 2 t) (W1' := V m c main_v15)
    (W2 := iblk m c 3 t) (W2' := V m c main_v16)
    (fun k => feature_tile m c t r k ⟨t.val * 4096 + r.val, hp⟩ rfl) (weight0_tile m c t) (weight1_tile m c t)
    (weight2_tile m c t) q

/-- An entry of the result array lies in point `t`'s block when its coordinates are in the block's ranges. -/
theorem mem_block (t : Fin cfg0.N) (i : S102400x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v17).slice (win0_4.rect t)).set ↔ _
  rw [View.set_slice_whole, Rect.mem_set_unit]
  exact Iff.rfl

/-- Every entry of the result array is in the block of the point numbered by its row divided by 4096. -/
theorem blocks_cover (i : S102400x256.Idx) :
    ∃ t : Fin cfg0.N, (cfg0.win 4).flush t = true ∧ i ∈ ((cfg0.win 4).blk t).view.set := by
  have hi0 : (i 0).val < 102400 := (i 0).isLt
  have hi1 : (i 1).val < 256 := (i 1).isLt
  have hN : cfg0.N = 25 := N_0
  obtain ⟨t, ht⟩ : ∃ t : Fin cfg0.N, t.val = (i 0).val / 4096 := ⟨⟨(i 0).val / 4096, by rw [hN]; omega⟩, rfl⟩
  obtain ⟨-, -, -, -, -, -, -, -, e40, e41⟩ := block_index t
  refine ⟨t, flush0_4 t, ?_⟩
  rw [mem_block]
  intro a
  match a with
  | ⟨0, _⟩ =>
    show win0_4.index t (0 : Fin 2) * 4096 ≤ (i 0).val ∧ (i 0).val < win0_4.index t (0 : Fin 2) * 4096 + 4096
    rw [e40, ht]; omega
  | ⟨1, _⟩ =>
    show win0_4.index t (1 : Fin 2) * 256 ≤ (i 1).val ∧ (i 1).val < win0_4.index t (1 : Fin 2) * 256 + 256
    rw [e41]; omega

/-- After the last point the result array holds the network on every row of the padded features. -/
theorem result_array (c : Dev nD) : (dats m 0 c).arrAt 4 cfg0.N = paddedRows m c :=
  (dats m 0 c).arrAt_eq_of_cover 4 (paddedRows m c) (fun t _ => written_eq m c t) blocks_cover

end Cert.KernelIdeal.Tiles

end
-- ==== Proof.KernelResult.lean ====
/-
  The kernel's program as one function of its arguments.

  Before the tiled region the program aggregates the edge messages into one row of 64 features per node — for
  every edge the row of the embedding table named by the column index (a negative index counted from the end),
  scaled by the edge's value, added into the row named by the row index — then pads the 100000 rows with 2400 rows
  of the padding value to 102400 rows, and narrows the three weight arrays to the short float format, which is the
  identity on the extended reals.  The tiled region leaves the network applied to every row of the padded
  features, and the one line after it keeps rows 0 … 99999.

  A kept row `p` is below 100000, so row `p` of the padded features is row `p` of the aggregated features, and the
  network's value there is that of the unpadded array: the padding rows, whatever they hold, are never read by a
  kept row.  So the program's result is the network on every row of the aggregated features.
-/
import proofs.«125468_j16114717295067_1_alg».proof.Proof.Tiles
import Idealize.ShloMosaic.Lib.KernelVsHost
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Tiles

variable (m : (ℓ : Loc nD τ sig) → Buf (Elt Ideal) ℓ) (ρ : Dev nD → PrngReg)

/-- The aggregated node features as a function of the two index arrays, the edge values and the embedding table:
    the program's first operations composed.  The reference begins with the same operations; nothing below
    looks inside this function. -/
def features (row col : IVec S800000 32) (val : FVec Ideal S800000 .f32) (emb : FVec Ideal S100000x64 .f32) :
    FVec Ideal S100000x64 .f32 :=
  Host.scatterAdd (F := Ideal) scatter_S100000x64_S800000x1_S800000x64_1_0_0_1
    (broadcastInDim S100000x64 ![] bcast_S_S100000x64 (constant (F := Ideal) S_ .f32 0x00000000#32))
    (broadcastInDim S800000x1 ![0] bcast_S800000_S800000x1_0 row)
    (mulf (broadcastInDim S800000x64 ![0, 1] bcast_S800000x1_S800000x64_0_1
        (broadcastInDim S800000x1 ![0] bcast_S800000_S800000x1_0 val))
      (Host.gather gather_S100000x64_S800000x1_S800000x64_1_0_n_n_0_1_164 emb
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 100000#32))) col))))

/-- The aggregated features of the launch memory's arguments. -/
abbrev launched (c : Dev nD) : FVec Ideal S100000x64 .f32 :=
  features (m ((c : Thread nD τ).loc main_arg0)) (m ((c : Thread nD τ).loc main_arg1))
    (m ((c : Thread nD τ).loc main_arg2)) (m ((c : Thread nD τ).loc main_arg3))

/-- The padding call on a feature array: 2400 rows of the padding value (the integer zero converted) below it. -/
def padded (x : FVec Ideal S100000x64 .f32) : S102400x64.Idx → EReal :=
  pad S102400x64 ![0, 0] ![2400, 0] ![0, 0] x (sitofp (F := Ideal) .f32 (constantI S_ 32 0#32))
    pads_S100000x64_S102400x64_024000_000 h_S_

set_option maxHeartbeats 400000 in
/-- The region finds the padded features: the aggregated features with 2400 rows of the padding value below.
    The padding call's operations carry their values across buffers of the same type; those transports are
    identities and are removed one by one. -/
theorem padded_features (c : Dev nD) : (V m c main_v13 : S102400x64.Idx → EReal) = padded (launched m c) := by
  generalize hX : padded (launched m c) = X
  dsimp only [V, V0]
  simp only [hostOps0, hostOps0_1, hostOps0_2, List.flatten_cons, List.flatten_nil, List.append_nil, List.cons_append,
    List.nil_append]
  after_results
  rw [← hX]
  refine (eq_of_heq (cast_heq _ _)).trans ?_
  unfold padded
  refine congrArg₂ (fun (x : FVec Ideal S100000x64 .f32) (v : FVec Ideal S_ .f32) =>
    pad S102400x64 ![0, 0] ![2400, 0] ![0, 0] x v pads_S100000x64_S102400x64_024000_000 h_S_) ?_ ?_
  · exact eq_of_heq (cast_heq _ _)
  · refine (eq_of_heq (cast_heq _ _)).trans ((eq_of_heq (cast_heq _ _)).trans ?_)
    exact congrArg (sitofp (F := Ideal) .f32) (eq_of_heq (cast_heq _ _))

set_option maxHeartbeats 200000 in
/-- The region finds the first weight array as launched: the narrowing is the identity on the extended reals. -/
theorem weight0 (c : Dev nD) : (V m c main_v14 : S64x256.Idx → EReal) = m ((c : Thread nD τ).loc main_arg4) := by
  dsimp only [V, V0]
  simp only [hostOps0, hostOps0_1, hostOps0_2, List.flatten_cons, List.flatten_nil, List.append_nil, List.cons_append,
    List.nil_append]
  after_results
  rfl

set_option maxHeartbeats 200000 in
/-- The region finds the second weight array as launched. -/
theorem weight1 (c : Dev nD) : (V m c main_v15 : S256x256.Idx → EReal) = m ((c : Thread nD τ).loc main_arg5) := by
  dsimp only [V, V0]
  simp only [hostOps0, hostOps0_1, hostOps0_2, List.flatten_cons, List.flatten_nil, List.append_nil, List.cons_append,
    List.nil_append]
  after_results
  rfl

set_option maxHeartbeats 200000 in
/-- The region finds the third weight array as launched. -/
theorem weight2 (c : Dev nD) : (V m c main_v16 : S256x256.Idx → EReal) = m ((c : Thread nD τ).loc main_arg6) := by
  dsimp only [V, V0]
  simp only [hostOps0, hostOps0_1, hostOps0_2, List.flatten_cons, List.flatten_nil, List.append_nil, List.cons_append,
    List.nil_append]
  after_results
  rfl

set_option maxHeartbeats 200000 in
/-- Row `p` < 100000 of the padded features is row `p` of the aggregated features. -/
theorem padded_row (c : Dev nD) (p : Fin 100000) (p' : Fin 102400) (hp : p'.val = p.val) (k : Fin 64) :
    (V m c main_v13 : S102400x64.Idx → EReal) (ix2 p' k) = launched m c (ix2 p k) := by
  rw [padded_features]
  unfold padded
  refine pad_apply_of_inside ![0, 0] ![2400, 0] ![0, 0] (launched m c) (sitofp (F := Ideal) .f32 (constantI S_ 32 0#32))
    pads_S100000x64_S102400x64_024000_000 h_S_ (ix2 p' k) (ix2 p k) (fun a => ?_)
  match a with
  | ⟨0, _⟩ => show p'.val = 0 + p.val * (0 + 1); omega
  | ⟨1, _⟩ => show k.val = 0 + k.val * (0 + 1); omega

/-- What the program's result holds: the network on every row of the aggregated features. -/
abbrev result (c : Dev nD) : S100000x256.Idx → EReal :=
  Cert.Network.rows (A := 100000) (launched m c) (m ((c : Thread nD τ).loc main_arg4))
    (m ((c : Thread nD τ).loc main_arg5)) (m ((c : Thread nD τ).loc main_arg6))

set_option maxHeartbeats 200000 in
/-- After the region the result buffer of the tiled call holds the network on every row of the padded features. -/
theorem region_result (c : Dev nD) :
    Pipeline.withArrays (cfgs 0).spec c (V0 m c) (fun w => (dats m 0 c).arrAt w (cfgs 0).N) (Proc.devRef .tc main_v17)
      = paddedRows m c :=
  (Pipeline.withArrays_arr spec0 launch0.win.arr_inj c (V0 m c) (fun w => (dats m 0 c).arrAt w cfg0.N) 4).trans
    (result_array m c)

set_option maxHeartbeats 200000 in
/-- At a kept row the network on the padded features is the network on the aggregated features. -/
theorem kept_entry (c : Dev nD) (p : Fin 100000) (p' : Fin 102400) (hp : p'.val = p.val) (q : Fin 256) :
    paddedRows m c (ix2 p' q) = result m c (ix2 p q) :=
  Cert.Network.row_congr4
    (x := fun k => (V m c main_v13 : S102400x64.Idx → EReal) (ix2 p' k))
    (x' := fun k => launched m c (ix2 p k))
    (W0 := V m c main_v14) (W0' := m ((c : Thread nD τ).loc main_arg4))
    (W1 := V m c main_v15) (W1' := m ((c : Thread nD τ).loc main_arg5))
    (W2 := V m c main_v16) (W2' := m ((c : Thread nD τ).loc main_arg6))
    (fun k => padded_row m c p p' hp k) (fun y => congrFun (weight0 m c) y)
    (fun y => congrFun (weight1 m c) y) (fun y => congrFun (weight2 m c) y) q

/-- Keeping rows 0 … 99999 of any array of 102400 rows: entry (p, q) of what is kept is entry (p, q) of the array. -/
theorem kept_apply (Y : S102400x256.Idx → EReal) (p : Fin 100000) (q : Fin 256) (p' : Fin 102400) (hp : p'.val = p.val) :
    extractStridedSlice S100000x256 ![0, 0] Y slices_S102400x256_S100000x256_0_0 (ix2 p q) = Y (ix2 p' q) :=
  extractStridedSlice_apply ![0, 0] Y slices_S102400x256_S100000x256_0_0 (ix2 p q) (ix2 p' q) (fun a => by
    match a with
    | ⟨0, _⟩ => show p'.val = 0 + p.val; omega
    | ⟨1, _⟩ => show q.val = 0 + q.val; omega)

set_option maxHeartbeats 200000 in
/-- Rows 0 … 99999 of the region's result are the network on the aggregated features. -/
theorem kept_rows (c : Dev nD) :
    extractStridedSlice S100000x256 ![0, 0] (paddedRows m c) slices_S102400x256_S100000x256_0_0 = result m c := by
  funext i
  obtain ⟨p, q, rfl⟩ : ∃ (p : Fin 100000) (q : Fin 256), i = ix2 p q := ⟨i 0, i 1, eq_ix2 i⟩
  have hp : p.val < 102400 := by have := p.isLt; omega
  exact (kept_apply (paddedRows m c) p q ⟨p.val, hp⟩ rfl).trans (kept_entry m c p ⟨p.val, hp⟩ rfl q)

set_option maxHeartbeats 200000 in
/-- The line after the region keeps rows 0 … 99999 of the region's result: the network on the aggregated features. -/
theorem tail_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  rw [region_result m c]
  exact kept_rows m c

set_option maxHeartbeats 200000 in
/-- Every weakly fair execution of the program terminates with its result at the network on every row of the
    aggregated features, and its arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.SameFeatures.lean ====
/-
  Both programs begin with the same aggregation of the edge messages: the same operations with the same index
  arithmetic, dimension records and literals, printed once in each program.  As functions of the two index
  arrays, the edge values and the embedding table they are one function.
-/
import proofs.«125468_j16114717295067_1_alg».proof.Proof.Gen.ReferenceIdeal.Read
import proofs.«125468_j16114717295067_1_alg».proof.Proof.KernelResult

noncomputable section

namespace Cert.SameFeatures

open Idealize.ShloMosaic

set_option maxHeartbeats 100000 in
/-- The reference's aggregated features are the kernel program's. -/
theorem features_eq (row col : IVec Cert.KernelIdeal.S800000 32) (val : FVec Ideal Cert.KernelIdeal.S800000 .f32)
    (emb : FVec Ideal Cert.KernelIdeal.S100000x64 .f32) :
    Cert.ReferenceIdeal.Read.val_main_v12 (F := Ideal) row col val emb
      = Cert.KernelIdeal.Whole.features row col val emb := rfl

end Cert.SameFeatures

end
-- ==== Proof.lean ====
/-
  The certificate of a fused three-layer network over aggregated node features.

  Both programs first aggregate the edge messages into one row of 64 features per node (the same operations in
  both), then apply three bias-free linear layers of width 256 with a clipping at zero after the first two.  The
  reference does this on the whole 100000-row array with three general dot products.  The kernel pads the array
  to 102400 rows, processes it in 25 tiles of 4096 rows on the matrix unit with the weights narrowed to the short
  float format, and keeps the first 100000 rows of the result.

  On the extended reals the narrowing is the identity and a product on the matrix unit into a zero accumulator is
  the general dot product: both are the sum over the contracted coordinate.  The network's value at a row depends on
  that row alone, so tiling the rows changes nothing, and a kept row never reads a padding row.  Hence both
  results are the network applied to every row of the aggregated features; no law of arithmetic beyond this
  rearrangement is used, so the finiteness of the inputs is never needed.  The ideal pass rewrote nothing, so the
  idealization claim is trivial; the three frame claims are the generated frames and the reference's generated run.
-/
import proofs.«125468_j16114717295067_1_alg».proof.Defs
import proofs.«125468_j16114717295067_1_alg».proof.Proof.Gen.Kernel
import proofs.«125468_j16114717295067_1_alg».proof.Proof.Gen.Kernel.Skeleton
import proofs.«125468_j16114717295067_1_alg».proof.Proof.Gen.Kernel.Launch
import proofs.«125468_j16114717295067_1_alg».proof.Proof.Gen.Kernel.Points
import proofs.«125468_j16114717295067_1_alg».proof.Proof.Gen.Kernel.Frame
import proofs.«125468_j16114717295067_1_alg».proof.Proof.Gen.KernelIdeal
import proofs.«125468_j16114717295067_1_alg».proof.Proof.Gen.KernelIdeal.Skeleton
import proofs.«125468_j16114717295067_1_alg».proof.Proof.Gen.KernelIdeal.Launch
import proofs.«125468_j16114717295067_1_alg».proof.Proof.Gen.KernelIdeal.Points
import proofs.«125468_j16114717295067_1_alg».proof.Proof.Gen.KernelIdeal.Frame
import proofs.«125468_j16114717295067_1_alg».proof.Proof.Gen.ReferenceIdeal
import proofs.«125468_j16114717295067_1_alg».proof.Proof.Gen.Pre_finite_inputs
import proofs.«125468_j16114717295067_1_alg».proof.Proof.Gen.ReferenceIdeal.Run
import proofs.«125468_j16114717295067_1_alg».proof.Proof.Gen.ReferenceIdeal.Read
import proofs.«125468_j16114717295067_1_alg».proof.Proof.RefRows
import proofs.«125468_j16114717295067_1_alg».proof.Proof.KernelResult
import proofs.«125468_j16114717295067_1_alg».proof.Proof.SameFeatures
import Idealize.ShloMosaic.Adequacy
import Idealize.ShloMosaic.Init

noncomputable section

namespace Cert.Proof

open Idealize.ShloMosaic Idealize.SL.Sem Cert.Kernel

/-- The word-level kernel program runs and leaves its arguments as they were: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network applied to every row of the
    aggregated features. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact ((Cert.ReferenceIdeal.Read.val_main_v17_eq (F := Ideal) _ _ _ _ _ _ _).trans
    (Cert.ReferenceIdeal.RefRows.result_eq _ _ _ _ _ _ _)).trans
    (congrArg (fun X => Cert.Network.rows (A := 100000) X _ _ _) (Cert.SameFeatures.features_eq _ _ _ _))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
